-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S1600000 32) (main_arg11 : IVec S1600000 32) (main_arg12 : IVec S1600000 32) (main_arg13 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 64
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S100000x128, .bf16⟩
  | .hbm, ⟨15, _⟩ => ⟨S50000x128, .bf16⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .bf16⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S50000, .f32⟩
  | .hbm, ⟨34, _⟩ => ⟨S1600000x1, .i32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S100000x1, .f32⟩
  | .hbm, ⟨58, _⟩ => ⟨S128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S50000x128, .f32⟩
  | .hbm, ⟨33, _⟩ => ⟨S1600000x1, .i32⟩
  | .hbm, ⟨34, _⟩ => ⟨S50000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Results.lean ====
/-
  The kernel program's run with its two results named.

  The program is a stretch of host operations followed by two kernel regions. Its run ends with every buffer
  that outlives the regions at the contents the last region leaves: the first region's output array holds what
  that region's write-backs leave of the contents after the host stretch, the second region does not touch it,
  and the second region's output array holds what its own write-backs leave; no host operation and no region
  writes an argument array. The statement is at any float instance.
-/
import proofs.«153764_j764504178904_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After both regions the first region's output array is what its own write-backs left: the second region's
    arrays are other buffers. -/
theorem last_first_result (c : Dev nD) :
    W3 m ρ c (Proc.devRef .tc main_v38) = (dat0 (V1 m ρ) c).arrAt 6 cfg0.N :=
  (W3_of_ne m ρ c main_v38 (by decide)).trans (W2_arr m ρ c 6)

/-- After both regions the second region's output array is what its write-backs left. -/
theorem last_second_result (c : Dev nD) :
    W3 m ρ c (Proc.devRef .tc main_v39) = (dat1 (V2 m ρ) c).arrAt 6 cfg1.N :=
  W3_arr m ρ c 6

set_option backward.isDefEq.respectTransparency.types false in
/-- Every weakly fair execution of the program terminates without a fault, with the two results at what the two
    regions' write-backs leave and the fourteen argument arrays as launched. -/
theorem run : θ_run defs (onTc (τ := τ) (main (F := F))) ⟨m, fun _ => 0, ρ⟩ (fun r => ∀ c : Dev nD,
      r.2.mem ((c.tc : Thread nD τ).loc main_v38) = (dat0 (V1 m ρ) c).arrAt 6 cfg0.N
      ∧ r.2.mem ((c.tc : Thread nD τ).loc main_v39) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v38 (by decide))).trans (last_first_result m ρ c),
       (h c _ (mem_uc main_v39 (by decide))).trans (last_second_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.Results

end
-- ==== Proof.Spec.lean ====
/-
  One layer of the two-type graph network, as a function of arrays, entry by entry.

  For a node type with N nodes of 128 features: X the nodes' own features, S the sums of the features gathered
  along the incoming edges, C the in-degrees held as an [N, 1] column, Ws and Wn the two 128 x 128 weight
  matrices and B the bias as a [1, 128] row. Entry (r, c) of the layer is

      max ( sum_k X(r, k) * Ws(k, c)  +  sum_k (S(r, k) / max(C(r, 0), 1)) * Wn(k, c)  +  B(0, c) ,  0 )

  on the extended reals: the mean over the incoming edges is the sum divided by the degree, a node without
  incoming edges dividing by one. The literals one and zero stay the words the programs print.

  The second half is the one law that joins the two programs: the reference adds its two bias vectors one after
  the other around the neighbour term, the kernel adds their sum at the end; addition on the extended reals is
  commutative and associative, so the two orders are one value, with no finiteness assumed.
-/
import Idealize.ShloMosaic.PureOps.Ideal
import Idealize.ShloMosaic.Lib.ValueIdx

noncomputable section

open scoped BigOperators

namespace Cert.Sage

open Idealize.ShloMosaic Idealize.ShloMosaic.ValueIdx

/-- The float word of 1.0, read as an extended real. -/
abbrev one : EReal := Ideal.ofBits .f32 0x3F800000#32
/-- The float word of 0.0, read as an extended real. -/
abbrev zero : EReal := Ideal.ofBits .f32 0x00000000#32

/-- Entry (r, c) of the layer. -/
def entry {N : Nat} (X S : FVec Ideal ⟨2, ![N, 128]⟩ .f32) (C : FVec Ideal ⟨2, ![N, 1]⟩ .f32)
    (Ws Wn : FVec Ideal ⟨2, ![128, 128]⟩ .f32) (B : FVec Ideal ⟨2, ![1, 128]⟩ .f32) (r : Fin N) (c : Fin 128) : EReal :=
  max ((∑ k : Fin 128, X (ix2 r k) * Ws (ix2 k c))
        + (∑ k : Fin 128, Ideal.div (S (ix2 r k)) (max (C (ix2 r (0 : Fin 1))) one) * Wn (ix2 k c))
        + B (ix2 (0 : Fin 1) c)) zero

/-- The layer as a whole [N, 128] array. -/
def layer {N : Nat} (X S : FVec Ideal ⟨2, ![N, 128]⟩ .f32) (C : FVec Ideal ⟨2, ![N, 1]⟩ .f32)
    (Ws Wn : FVec Ideal ⟨2, ![128, 128]⟩ .f32) (B : FVec Ideal ⟨2, ![1, 128]⟩ .f32) : FVec Ideal ⟨2, ![N, 128]⟩ .f32 :=
  fun j => entry X S C Ws Wn B (j 0) (j 1)

theorem layer_apply {N : Nat} (X S : FVec Ideal ⟨2, ![N, 128]⟩ .f32) (C : FVec Ideal ⟨2, ![N, 1]⟩ .f32)
    (Ws Wn : FVec Ideal ⟨2, ![128, 128]⟩ .f32) (B : FVec Ideal ⟨2, ![1, 128]⟩ .f32) (r : Fin N) (c : Fin 128) :
    layer X S C Ws Wn B (ix2 r c) = entry X S C Ws Wn B r c := rfl

/-- An entry depends on row r of X, S and C only: blocks that hold those rows at row p give the same entry. -/
theorem entry_of_blocks {N M : Nat} (X S : FVec Ideal ⟨2, ![N, 128]⟩ .f32) (C : FVec Ideal ⟨2, ![N, 1]⟩ .f32)
    (Ws Wn : FVec Ideal ⟨2, ![128, 128]⟩ .f32) (B : FVec Ideal ⟨2, ![1, 128]⟩ .f32)
    (xb sb : FVec Ideal ⟨2, ![M, 128]⟩ .f32) (cb : FVec Ideal ⟨2, ![M, 1]⟩ .f32)
    (ws wn : FVec Ideal ⟨2, ![128, 128]⟩ .f32) (bb : FVec Ideal ⟨2, ![1, 128]⟩ .f32) (p : Fin M) (r : Fin N) (q : Fin 128)
    (hx : ∀ k : Fin 128, xb (ix2 p k) = X (ix2 r k)) (hs : ∀ k : Fin 128, sb (ix2 p k) = S (ix2 r k))
    (hc : cb (ix2 p (0 : Fin 1)) = C (ix2 r (0 : Fin 1))) (hws : ws = Ws) (hwn : wn = Wn) (hb : bb = B) :
    entry xb sb cb ws wn bb p q = entry X S C Ws Wn B r q := by
  subst hws hwn hb
  unfold entry
  simp only [hx, hs, hc]

/-- The two orders of adding the biases: ((a + b1) + n) + b2 = (a + n) + (b1 + b2) on the extended reals. -/
theorem bias_order (a n b1 b2 : EReal) : a + b1 + n + b2 = a + n + (b1 + b2) := by
  rw [add_assoc a b1 n, add_comm b1 n, ← add_assoc a n b1, add_assoc (a + n) b1 b2]

end Cert.Sage

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What one grid point of either kernel stores, read at an index.

  The body loads a block of 5000 rows of the nodes' features (xb), of the neighbour sums (sb) and of the degree
  column (cb), the two weight matrices and the bias row, and stores one [5000, 128] value. Entry (p, q) of that
  value is the layer's entry (p, q) of the loaded blocks: the two matrix products into zero accumulators are
  plain sums over the 128 features, the change of float format is the identity on the extended reals, the degree
  column is spread along the row and the bias row down the rows. The two kernels have the same body.
-/
import proofs.«153764_j764504178904_2_alg».proof.Proof.Gen.KernelIdeal.Skeleton
import proofs.«153764_j764504178904_2_alg».proof.Proof.Spec
import proofs.«153764_j764504178904_2_alg».proof.Proof.LibPlainDot
import proofs.«153764_j764504178904_2_alg».proof.Proof.LibKeepdims
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The printed dimension numbers of the block products are those of a plain product [5000, 128] · [128, 128]. -/
theorem dot_plain : dot_S5000x128_S128x128_S5000x128_1_0_0_1_n_n = DotDims.plain 5000 128 128 :=
  Cert.Lib.PlainDot.eq_plain _ rfl rfl rfl rfl rfl rfl

/-- A block product into the zero accumulator at (p, q): the sum over the 128 features. -/
theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  rw [dot_plain]
  exact Cert.Lib.PlainDot.matmul_zero_plain_apply none l r (ix2 p q)

/-- The divisor at (p, k): the degree of row p, or one if that is larger, whatever the column k. -/
theorem denom_apply (cb : FVec Ideal S5000x1 .f32) (p : Fin 5000) (k : Fin 128) :
    broadcastTo S5000x128 (maximumf (shapeCast S5000x1 cb shapeCasts_S5000x1_S5000x1)
        (broadcast S5000x1 (Scalar.ofBits .f32 0x3F800000#32))) broadcasts_S5000x1_S5000x128 (ix2 p k)
      = max (cb (ix2 p (0 : Fin 1))) Cert.Sage.one := by
  rw [shapeCast_self]
  exact Cert.LibKeepdims.broadcastTo_a1_ab_apply _ _ p k

/-- The bias row spread down the rows, at (p, q): the row's entry q. -/
theorem bias_apply (bb : FVec Ideal S1x128 .f32) (p : Fin 5000) (q : Fin 128) :
    broadcastTo S5000x128 (shapeCast S1x128 bb shapeCasts_S1x128_S1x128) broadcasts_S1x128_S5000x128 (ix2 p q)
      = bb (ix2 (0 : Fin 1) q) := by
  rw [shapeCast_self]
  exact broadcastTo_1b_ab_apply _ _ p q

/-- Entry (p, q) of what the first kernel's body stores is the layer's entry (p, q) of the loaded blocks. -/
theorem pay0_apply (cb : Vec Ideal S5000x1 .f32) (sb xb : Vec Ideal S5000x128 .f32) (ws wn : Vec Ideal S128x128 .f32)
    (bb : Vec Ideal S1x128 .f32) (p : Fin 5000) (q : Fin 128) :
    k0_pay1 (F := Ideal) cb sb xb ws wn bb (ix2 p q) = Cert.Sage.entry xb sb cb ws wn bb p q := by
  unfold k0_pay1 Cert.Sage.entry
  refine congrArg₂ max (congrArg₂ (· + ·) (congrArg₂ (· + ·) ?_ ?_) ?_) rfl
  · exact mm_apply _ _ p q
  · refine (mm_apply _ _ p q).trans (Finset.sum_congr rfl fun k _ => congrArg₂ (· * ·) ?_ rfl)
    refine congrArg₂ Ideal.div ?_ (denom_apply cb p k)
    rw [shapeCast_self]
  · exact bias_apply bb p q

/-- The second kernel's body is the first's: entry (p, q) of what it stores is the same entry of its loaded blocks. -/
theorem pay1_apply (cb : Vec Ideal S5000x1 .f32) (sb xb : Vec Ideal S5000x128 .f32) (ws wn : Vec Ideal S128x128 .f32)
    (bb : Vec Ideal S1x128 .f32) (p : Fin 5000) (q : Fin 128) :
    k1_pay1 (F := Ideal) cb sb xb ws wn bb (ix2 p q) = Cert.Sage.entry xb sb cb ws wn bb p q :=
  pay0_apply cb sb xb ws wn bb p q

end Cert.KernelIdeal.Body

end
-- ==== Proof.Blocks.lean ====
/-
  From blocks to arrays: each kernel region leaves its output array at the layer of its input arrays.

  A region runs its body at every grid point t on row blocks of 5000 rows: block t of the nodes' features, of the
  neighbour sums and of the degree column, and the whole weight matrices and bias row. What point t writes back is
  entry by entry the layer's entry of the loaded blocks, and an entry of the layer depends on one row of the row-blocked
  arrays only, so it is block t of the layer of the whole arrays. The blocks tile the output array (row r lies in
  block r / 5000), hence after the last write-back the array is the layer. Everything is stated at the contents V the
  region finds its arrays at.
-/
import proofs.«153764_j764504178904_2_alg».proof.Proof.Gen.KernelIdeal.Frame
import proofs.«153764_j764504178904_2_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## Region 0: 20 blocks of 5000 rows of a [100000, 128] array -/

/-- The printed index maps of region 0, decided over its 20 grid points: the three row-blocked inputs and the
    output are at block row t, the weights and the bias at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 20 :=
  (by decide +kernel : ∀ t : Fin grid0.N, _)

/-- Row p of the features' block at point t is row 5000 t + p of the array. -/
theorem xblk0 (c : Dev nD) (t : Fin cfg0.N) (p : Fin 5000) (k : Fin 128) (h : t.val * 5000 + p.val < 100000) :
    iblk0 V c 0 t (ix2 p k) = V c main_arg0 (ix2 (⟨t.val * 5000 + p.val, h⟩ : Fin 100000) k) := by
  obtain ⟨e0, e1, -⟩ := idx0 t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of the neighbour sums' block at point t is row 5000 t + p of the array. -/
theorem sblk0 (c : Dev nD) (t : Fin cfg0.N) (p : Fin 5000) (k : Fin 128) (h : t.val * 5000 + p.val < 100000) :
    iblk0 V c 1 t (ix2 p k) = V c main_v28 (ix2 (⟨t.val * 5000 + p.val, h⟩ : Fin 100000) k) := by
  obtain ⟨-, -, e0, e1, -⟩ := idx0 t
  show V c main_v28 (((cfg0.win 1).blk t).view.emb (ix2 p k)) = _
  refine congrArg (V c main_v28) ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- Row p of the degree column's block at point t is row 5000 t + p of the column. -/
theorem cblk0 (c : Dev nD) (t : Fin cfg0.N) (p : Fin 5000) (h : t.val * 5000 + p.val < 100000) :
    iblk0 V c 2 t (ix2 p (0 : Fin 1)) = V c main_v33 (ix2 (⟨t.val * 5000 + p.val, h⟩ : Fin 100000) (0 : Fin 1)) := by
  obtain ⟨-, -, -, -, e0, e1, -⟩ := idx0 t
  show V c main_v33 (((cfg0.win 2).blk t).view.emb (ix2 p (0 : Fin 1))) = _
  refine congrArg (V c main_v33) ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- The self weights' one block is the whole matrix. -/
theorem wsblk0 (c : Dev nD) (t : Fin cfg0.N) : iblk0 V c 3 t = V c main_arg2 := by
  obtain ⟨-, -, -, -, -, -, e0, e1, -⟩ := idx0 t
  funext y
  show V c main_arg2 (((cfg0.win 3).blk t).view.emb y) = V c main_arg2 y
  refine congrArg (V c main_arg2) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The neighbour weights' one block is the whole matrix. -/
theorem wnblk0 (c : Dev nD) (t : Fin cfg0.N) : iblk0 V c 4 t = V c main_arg8 := by
  obtain ⟨-, -, -, -, -, -, -, -, e0, e1, -⟩ := idx0 t
  funext y
  show V c main_arg8 (((cfg0.win 4).blk t).view.emb y) = V c main_arg8 y
  refine congrArg (V c main_arg8) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias row's one block is the whole row. -/
theorem bblk0 (c : Dev nD) (t : Fin cfg0.N) : iblk0 V c 5 t = V c main_v35 := by
  obtain ⟨-, -, -, -, -, -, -, -, -, -, e0, e1, -⟩ := idx0 t
  funext y
  show V c main_v35 (((cfg0.win 5).blk t).view.emb y) = V c main_v35 y
  refine congrArg (V c main_v35) ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point t writes back is block t of the layer of the arrays as the region finds them. -/
theorem flushed0_eq (c : Dev nD) (t : Fin cfg0.N) :
    (dat0 V c).flushed 6 t = ((cfg0.win 6).blk t).view.read (Elt Ideal)
      (Cert.Sage.layer (N := 100000) (V c main_arg0) (V c main_v28) (V c main_v33) (V c main_arg2) (V c main_arg8) (V c main_v35)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, -, -, -, -, e0, e1, ht⟩ := idx0 t
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg0.win 6).blk t).view.emb (ix2 p q) = ix2 (⟨t.val * 5000 + p.val, hrow⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show k0_pay1 (F := Ideal) (iblk0 V c 2 t) (iblk0 V c 1 t) (iblk0 V c 0 t) (iblk0 V c 3 t) (iblk0 V c 4 t) (iblk0 V c 5 t) (ix2 p q)
    = Cert.Sage.layer (N := 100000) (V c main_arg0) (V c main_v28) (V c main_v33) (V c main_arg2) (V c main_arg8) (V c main_v35) (((cfg0.win 6).blk t).view.emb (ix2 p q))
  rw [hemb, Cert.Sage.layer_apply, Cert.KernelIdeal.Body.pay0_apply]
  exact Cert.Sage.entry_of_blocks (V c main_arg0) (V c main_v28) (V c main_v33) (V c main_arg2) (V c main_arg8) (V c main_v35)
    (iblk0 V c 0 t) (iblk0 V c 1 t) (iblk0 V c 2 t) (iblk0 V c 3 t) (iblk0 V c 4 t) (iblk0 V c 5 t) p ⟨t.val * 5000 + p.val, hrow⟩ q
    (fun k => xblk0 V c t p k hrow) (fun k => sblk0 V c t p k hrow) (cblk0 V c t p hrow)
    (wsblk0 V c t) (wnblk0 V c t) (bblk0 V c t)

/-- An index of the output array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v38).slice (win0_6.rect t)).set ↔ _
  rw [View.set_slice_whole, Rect.mem_set_unit]
  exact Iff.rfl

/-- Every row is in the block of the point numbered by its quotient by 5000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, -, -, -, -, -, -, -, -, e0, e1, -⟩ := idx0 t
  have tv : t.val = (i 0).val / 5000 := rfl
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array of region 0 after its write-backs is the layer of the arrays as the region finds them. -/
theorem final0 (c : Dev nD) : (dat0 V c).arrAt 6 cfg0.N
    = Cert.Sage.layer (N := 100000) (V c main_arg0) (V c main_v28) (V c main_v33) (V c main_arg2) (V c main_arg8) (V c main_v35) :=
  (dat0 V c).arrAt_eq_of_cover 6 _ (fun t _ => flushed0_eq V c t) cover0

/-! ## Region 1: 10 blocks of 5000 rows of a [50000, 128] array -/

/-- The printed index maps of region 1, decided over its 10 grid points: the three row-blocked inputs and the
    output are at block row t, the weights and the bias at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- Row p of the features' block at point t is row 5000 t + p of the array. -/
theorem xblk1 (c : Dev nD) (t : Fin cfg1.N) (p : Fin 5000) (k : Fin 128) (h : t.val * 5000 + p.val < 50000) :
    iblk1 V c 0 t (ix2 p k) = V c main_arg1 (ix2 (⟨t.val * 5000 + p.val, h⟩ : Fin 50000) k) := by
  obtain ⟨e0, e1, -⟩ := idx1 t
  show V c main_arg1 (((cfg1.win 0).blk t).view.emb (ix2 p k)) = _
  refine congrArg (V c main_arg1) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of the neighbour sums' block at point t is row 5000 t + p of the array. -/
theorem sblk1 (c : Dev nD) (t : Fin cfg1.N) (p : Fin 5000) (k : Fin 128) (h : t.val * 5000 + p.val < 50000) :
    iblk1 V c 1 t (ix2 p k) = V c main_v12 (ix2 (⟨t.val * 5000 + p.val, h⟩ : Fin 50000) k) := by
  obtain ⟨-, -, e0, e1, -⟩ := idx1 t
  show V c main_v12 (((cfg1.win 1).blk t).view.emb (ix2 p k)) = _
  refine congrArg (V c main_v12) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Row p of the degree column's block at point t is row 5000 t + p of the column. -/
theorem cblk1 (c : Dev nD) (t : Fin cfg1.N) (p : Fin 5000) (h : t.val * 5000 + p.val < 50000) :
    iblk1 V c 2 t (ix2 p (0 : Fin 1)) = V c main_v17 (ix2 (⟨t.val * 5000 + p.val, h⟩ : Fin 50000) (0 : Fin 1)) := by
  obtain ⟨-, -, -, -, e0, e1, -⟩ := idx1 t
  show V c main_v17 (((cfg1.win 2).blk t).view.emb (ix2 p (0 : Fin 1))) = _
  refine congrArg (V c main_v17) ?_
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega

/-- The self weights' one block is the whole matrix. -/
theorem wsblk1 (c : Dev nD) (t : Fin cfg1.N) : iblk1 V c 3 t = V c main_arg4 := by
  obtain ⟨-, -, -, -, -, -, e0, e1, -⟩ := idx1 t
  funext y
  show V c main_arg4 (((cfg1.win 3).blk t).view.emb y) = V c main_arg4 y
  refine congrArg (V c main_arg4) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The neighbour weights' one block is the whole matrix. -/
theorem wnblk1 (c : Dev nD) (t : Fin cfg1.N) : iblk1 V c 4 t = V c main_arg6 := by
  obtain ⟨-, -, -, -, -, -, -, -, e0, e1, -⟩ := idx1 t
  funext y
  show V c main_arg6 (((cfg1.win 4).blk t).view.emb y) = V c main_arg6 y
  refine congrArg (V c main_arg6) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias row's one block is the whole row. -/
theorem bblk1 (c : Dev nD) (t : Fin cfg1.N) : iblk1 V c 5 t = V c main_v37 := by
  obtain ⟨-, -, -, -, -, -, -, -, -, -, e0, e1, -⟩ := idx1 t
  funext y
  show V c main_v37 (((cfg1.win 5).blk t).view.emb y) = V c main_v37 y
  refine congrArg (V c main_v37) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point t writes back is block t of the layer of the arrays as the region finds them. -/
theorem flushed1_eq (c : Dev nD) (t : Fin cfg1.N) :
    (dat1 V c).flushed 6 t = ((cfg1.win 6).blk t).view.read (Elt Ideal)
      (Cert.Sage.layer (N := 50000) (V c main_arg1) (V c main_v12) (V c main_v17) (V c main_arg4) (V c main_arg6) (V c main_v37)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, -, -, -, -, e0, e1, ht⟩ := idx1 t
  funext j
  obtain ⟨p, q, rfl⟩ : ∃ (p : Fin 5000) (q : Fin 128), j = ix2 p q := ⟨j 0, j 1, eq_ix2 j⟩
  have hrow : t.val * 5000 + p.val < 50000 := by have := p.isLt; omega
  have hemb : ((cfg1.win 6).blk t).view.emb (ix2 p q) = ix2 (⟨t.val * 5000 + p.val, hrow⟩ : Fin 50000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (F := Ideal) (iblk1 V c 2 t) (iblk1 V c 1 t) (iblk1 V c 0 t) (iblk1 V c 3 t) (iblk1 V c 4 t) (iblk1 V c 5 t) (ix2 p q)
    = Cert.Sage.layer (N := 50000) (V c main_arg1) (V c main_v12) (V c main_v17) (V c main_arg4) (V c main_arg6) (V c main_v37) (((cfg1.win 6).blk t).view.emb (ix2 p q))
  rw [hemb, Cert.Sage.layer_apply, Cert.KernelIdeal.Body.pay1_apply]
  exact Cert.Sage.entry_of_blocks (V c main_arg1) (V c main_v12) (V c main_v17) (V c main_arg4) (V c main_arg6) (V c main_v37)
    (iblk1 V c 0 t) (iblk1 V c 1 t) (iblk1 V c 2 t) (iblk1 V c 3 t) (iblk1 V c 4 t) (iblk1 V c 5 t) p ⟨t.val * 5000 + p.val, hrow⟩ q
    (fun k => xblk1 V c t p k hrow) (fun k => sblk1 V c t p k hrow) (cblk1 V c t p hrow)
    (wsblk1 V c t) (wnblk1 V c t) (bblk1 V c t)

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v39).slice (win1_6.rect t)).set ↔ _
  rw [View.set_slice_whole, Rect.mem_set_unit]
  exact Iff.rfl

/-- Every row is in the block of the point numbered by its quotient by 5000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨-, -, -, -, -, -, -, -, -, -, -, -, e0, e1, -⟩ := idx1 t
  have tv : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array of region 1 after its write-backs is the layer of the arrays as the region finds them. -/
theorem final1 (c : Dev nD) : (dat1 V c).arrAt 6 cfg1.N
    = Cert.Sage.layer (N := 50000) (V c main_arg1) (V c main_v12) (V c main_v17) (V c main_arg4) (V c main_arg6) (V c main_v37) :=
  (dat1 V c).arrAt_eq_of_cover 6 _ (fun t _ => flushed1_eq V c t) cover1

end Cert.KernelIdeal.Blocks

end
-- ==== Proof.Entry0.lean ====
/-
  What the first kernel region finds in its six input arrays.

  The host operations before the regions leave the argument arrays alone and compute, for this region: the sums of
  the source features over the incoming edges (a gather of rows at the wrapped source indices, added into the
  target rows; the change of float format around the gather is the identity on the extended reals, so the value is
  the reference's own stage of that name), the in-degrees (ones added into the target entries) reshaped to a column,
  and the sum of the two bias vectors reshaped to a row.
-/
import proofs.«153764_j764504178904_2_alg».proof.Proof.Gen.KernelIdeal.Frame
import proofs.«153764_j764504178904_2_alg».proof.Proof.Gen.ReferenceIdeal.Read
import Idealize.ShloMosaic.Lib.StableHlo.Run

set_option maxRecDepth 16384

noncomputable section

namespace Cert.KernelIdeal.Entry0

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
/-- The nodes' own features: the argument array. -/
theorem feats (c : Dev nD) : V1 m ρ c main_arg0 = m ((c : Thread nD τ).loc main_arg0) := by
  dsimp only [V1, W1, hostOps0]
  after_results_simp <;> rfl

set_option maxHeartbeats 8000000 in
/-- The self weights: the argument array. -/
theorem wself (c : Dev nD) : V1 m ρ c main_arg2 = m ((c : Thread nD τ).loc main_arg2) := by
  dsimp only [V1, W1, hostOps0]
  after_results_simp <;> rfl

set_option maxHeartbeats 8000000 in
/-- The neighbour weights: the argument array. -/
theorem wneigh (c : Dev nD) : V1 m ρ c main_arg8 = m ((c : Thread nD τ).loc main_arg8) := by
  dsimp only [V1, W1, hostOps0]
  after_results_simp <;> rfl

set_option maxHeartbeats 8000000 in
/-- The neighbour sums: the reference's segment-sum stage of the same arguments. -/
theorem sums (c : Dev nD) : V1 m ρ c main_v28
    = Cert.ReferenceIdeal.Read.val_main_v41 (F := Ideal) (m ((c : Thread nD τ).loc main_arg1)) (m ((c : Thread nD τ).loc main_arg12)) (m ((c : Thread nD τ).loc main_arg13)) := by
  dsimp only [V1, W1, hostOps0]
  after_results_simp <;> rfl

set_option maxHeartbeats 8000000 in
/-- The degree column: the reference's degree stage, reshaped [100000] → [100000, 1]. -/
theorem degs (c : Dev nD) : V1 m ρ c main_v33
    = shapeCast S100000x1 (Cert.ReferenceIdeal.Read.val_main_v45 (F := Ideal) (m ((c : Thread nD τ).loc main_arg13))) shapeCasts_S100000_S100000x1 := by
  dsimp only [V1, W1, hostOps0]
  after_results_simp <;> rfl

set_option maxHeartbeats 8000000 in
/-- The bias row: the sum of the two bias vectors, reshaped [128] → [1, 128]. -/
theorem bias (c : Dev nD) : V1 m ρ c main_v35
    = (shapeCast S1x128 (addf (F := Ideal) (s := S128) (φ := .f32) (m ((c : Thread nD τ).loc main_arg3)) (m ((c : Thread nD τ).loc main_arg9))) shapeCasts_S128_S1x128 : S1x128.Idx → EReal) := by
  dsimp only [V1, W1, hostOps0]
  after_results_simp <;> rfl

end Cert.KernelIdeal.Entry0

end
-- ==== Proof.Entry1.lean ====
/-
  What the second kernel region finds in its six input arrays.

  The host operations before the regions leave the argument arrays alone and compute, for this region: the sums of
  the source features over the incoming edges (a gather of rows at the wrapped source indices, added into the
  target rows; the change of float format around the gather is the identity on the extended reals, so the value is
  the reference's own stage of that name), the in-degrees (ones added into the target entries) reshaped to a column,
  and the sum of the two bias vectors reshaped to a row. The first region writes none of these buffers.
-/
import proofs.«153764_j764504178904_2_alg».proof.Proof.Gen.KernelIdeal.Frame
import proofs.«153764_j764504178904_2_alg».proof.Proof.Gen.ReferenceIdeal.Read
import Idealize.ShloMosaic.Lib.StableHlo.Run

set_option maxRecDepth 16384

noncomputable section

namespace Cert.KernelIdeal.Entry1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
/-- The nodes' own features: the argument array. -/
theorem feats (c : Dev nD) : V2 m ρ c main_arg1 = m ((c : Thread nD τ).loc main_arg1) := by
  refine (W2_of_ne m ρ c main_arg1 (by decide)).trans ?_
  dsimp only [W1, hostOps0]
  after_results_simp <;> rfl

set_option maxHeartbeats 8000000 in
/-- The self weights: the argument array. -/
theorem wself (c : Dev nD) : V2 m ρ c main_arg4 = m ((c : Thread nD τ).loc main_arg4) := by
  refine (W2_of_ne m ρ c main_arg4 (by decide)).trans ?_
  dsimp only [W1, hostOps0]
  after_results_simp <;> rfl

set_option maxHeartbeats 8000000 in
/-- The neighbour weights: the argument array. -/
theorem wneigh (c : Dev nD) : V2 m ρ c main_arg6 = m ((c : Thread nD τ).loc main_arg6) := by
  refine (W2_of_ne m ρ c main_arg6 (by decide)).trans ?_
  dsimp only [W1, hostOps0]
  after_results_simp <;> rfl

set_option maxHeartbeats 8000000 in
/-- The neighbour sums: the reference's segment-sum stage of the same arguments. -/
theorem sums (c : Dev nD) : V2 m ρ c main_v12
    = Cert.ReferenceIdeal.Read.val_main_v17 (F := Ideal) (m ((c : Thread nD τ).loc main_arg0)) (m ((c : Thread nD τ).loc main_arg10)) (m ((c : Thread nD τ).loc main_arg11)) := by
  refine (W2_of_ne m ρ c main_v12 (by decide)).trans ?_
  dsimp only [W1, hostOps0]
  after_results_simp <;> rfl

set_option maxHeartbeats 8000000 in
/-- The degree column: the reference's degree stage, reshaped [50000] → [50000, 1]. -/
theorem degs (c : Dev nD) : V2 m ρ c main_v17
    = shapeCast S50000x1 (Cert.ReferenceIdeal.Read.val_main_v21 (F := Ideal) (m ((c : Thread nD τ).loc main_arg11))) shapeCasts_S50000_S50000x1 := by
  refine (W2_of_ne m ρ c main_v17 (by decide)).trans ?_
  dsimp only [W1, hostOps0]
  after_results_simp <;> rfl

set_option maxHeartbeats 8000000 in
/-- The bias row: the sum of the two bias vectors, reshaped [128] → [1, 128]. -/
theorem bias (c : Dev nD) : V2 m ρ c main_v37
    = (shapeCast S1x128 (addf (F := Ideal) (s := S128) (φ := .f32) (m ((c : Thread nD τ).loc main_arg5)) (m ((c : Thread nD τ).loc main_arg7))) shapeCasts_S128_S1x128 : S1x128.Idx → EReal) := by
  refine (W2_of_ne m ρ c main_v37 (by decide)).trans ?_
  dsimp only [W1, hostOps0]
  after_results_simp <;> rfl

end Cert.KernelIdeal.Entry1

end
-- ==== Proof.RefLayer.lean ====
/-
  The reference's two results are the layer.

  Read one operation at a time at an index (r, c), a result of the reference is

      max ( ((sum_k X(r, k) Ws(k, c) + b1(c)) + sum_k (S(r, k) / max(cnt(r), 1)) Wn(k, c)) + b2(c) , 0 )

  with S the segment sums and cnt the degrees, both as the reference's own stages. Its keepdims broadcasts read a
  vector at one coordinate; the layer reads the same entries through an [N, 1] column and a [1, 128] row; and the
  two orders of adding the biases agree by commutativity and associativity of addition on the extended reals.
-/
import proofs.«153764_j764504178904_2_alg».proof.Proof.Gen.ReferenceIdeal.Read
import proofs.«153764_j764504178904_2_alg».proof.Proof.Spec
import proofs.«153764_j764504178904_2_alg».proof.Proof.LibKeepdims
import Idealize.ShloMosaic.Lib.ValueLayout

noncomputable section

open scoped BigOperators

namespace Cert.ReferenceIdeal.Layer

open Cert.ReferenceIdeal Cert.ReferenceIdeal.Gen Cert.ReferenceIdeal.Read Idealize.ShloMosaic Idealize.ShloMosaic.ValueIdx

/-! ## Result 0: the [100000, 128] layer -/

/-- Result 0 of the reference, read at (r, c) one operation at a time. -/
theorem result0_apply (x0 : FVec Ideal S100000x128 .f32) (x1 : FVec Ideal S50000x128 .f32) (ws wn : FVec Ideal S128x128 .f32)
    (b1 b2 : FVec Ideal S128 .f32) (xs xd : IVec S1600000 32) (r : Fin 100000) (c : Fin 128) :
    val_main_v56 (F := Ideal) x0 x1 ws b1 wn b2 xs xd (ix2 r c)
      = max ((∑ k : Fin 128, x0 (ix2 r k) * ws (ix2 k c)) + b1 (ix1 c)
          + (∑ k : Fin 128, Ideal.div (val_main_v41 (F := Ideal) x1 xs xd (ix2 r k))
                (max (val_main_v45 (F := Ideal) xd (ix1 r)) Cert.Sage.one) * wn (ix2 k c))
          + b2 (ix1 c)) Cert.Sage.zero := by
  have el : ∀ k : Fin 128, lidx_main_v0 (ix2 r c) k = ix2 r k := fun k => funext fun a => by
    match a with
    | ⟨0, _⟩ => rfl
    | ⟨1, _⟩ => rfl
  have er : ∀ k : Fin 128, ridx_main_v0 (ix2 r c) k = ix2 k c := fun k => funext fun a => by
    match a with
    | ⟨0, _⟩ => rfl
    | ⟨1, _⟩ => rfl
  have el' : ∀ k : Fin 128, lidx_main_v51 (ix2 r c) k = ix2 r k := fun k => funext fun a => by
    match a with
    | ⟨0, _⟩ => rfl
    | ⟨1, _⟩ => rfl
  have er' : ∀ k : Fin 128, ridx_main_v51 (ix2 r c) k = ix2 k c := fun k => funext fun a => by
    match a with
    | ⟨0, _⟩ => rfl
    | ⟨1, _⟩ => rfl
  have eb1 : idx_main_v1 (idx_main_v2 (ix2 r c)) = ix1 c := funext fun a => by
    match a with
    | ⟨0, _⟩ => rfl
  have eb2 : idx_main_v53 (idx_main_v54 (ix2 r c)) = ix1 c := funext fun a => by
    match a with
    | ⟨0, _⟩ => rfl
  have ec : ∀ k : Fin 128, idx_main_v48 (idx_main_v49 (ix2 r k)) = ix1 r := fun k => funext fun a => by
    match a with
    | ⟨0, _⟩ => rfl
  rw [val_main_v56_apply, val_main_v55_apply, val_main_v52_apply, val_main_v3_apply, val_main_v0_apply, val_main_v2_apply, val_main_v1_apply, val_main_v51_apply, val_main_v54_apply, val_main_v53_apply, val_main_call0_v0_apply, val_main_call0_cst_apply]
  rw [eb1, eb2]
  refine congrArg₂ max (congrArg₂ (· + ·) (congrArg₂ (· + ·) (congrArg₂ (· + ·)
    (Finset.sum_congr rfl fun k _ => ?_) rfl) (Finset.sum_congr rfl fun k _ => ?_)) rfl) rfl
  · rw [el k, er k]
  · rw [el' k, er' k, val_main_v50_apply, val_main_v49_apply, val_main_v48_apply, val_main_v47_apply, val_main_v46_apply, val_main_cst_9_apply, ec k]
    rfl

/-- Result 0 of the reference is the layer of the features, the segment sums, the degrees as a column and the sum of
    the two bias vectors as a row. -/
theorem result0_eq (x0 : FVec Ideal S100000x128 .f32) (x1 : FVec Ideal S50000x128 .f32) (ws wn : FVec Ideal S128x128 .f32)
    (b1 b2 : FVec Ideal S128 .f32) (xs xd : IVec S1600000 32)
    (hc : (⟨1, ![100000]⟩ : Shape).ShapeCasts ⟨2, ![100000, 1]⟩) (hb : (⟨1, ![128]⟩ : Shape).ShapeCasts ⟨2, ![1, 128]⟩) :
    val_main_v56 (F := Ideal) x0 x1 ws b1 wn b2 xs xd
      = Cert.Sage.layer (N := 100000) x0 (val_main_v41 (F := Ideal) x1 xs xd) (shapeCast ⟨2, ![100000, 1]⟩ (val_main_v45 (F := Ideal) xd) hc)
          ws wn (shapeCast ⟨2, ![1, 128]⟩ (addf (F := Ideal) (s := S128) (φ := .f32) b1 b2) hb) := by
  funext i
  obtain ⟨r, c, rfl⟩ : ∃ (r : Fin 100000) (c : Fin 128), i = ix2 r c := ⟨i 0, i 1, eq_ix2 i⟩
  rw [result0_apply, Cert.Sage.bias_order, Cert.Sage.layer_apply]
  unfold Cert.Sage.entry
  rw [Cert.LibKeepdims.shapeCast_a_a1_apply, shapeCast_a_1a_apply]
  rfl

/-! ## Result 1: the [50000, 128] layer -/

/-- Result 1 of the reference, read at (r, c) one operation at a time. -/
theorem result1_apply (x0 : FVec Ideal S100000x128 .f32) (x1 : FVec Ideal S50000x128 .f32) (ws wn : FVec Ideal S128x128 .f32)
    (b1 b2 : FVec Ideal S128 .f32) (xs xd : IVec S1600000 32) (r : Fin 50000) (c : Fin 128) :
    val_main_v57 (F := Ideal) x0 x1 ws b1 wn b2 xs xd (ix2 r c)
      = max ((∑ k : Fin 128, x1 (ix2 r k) * ws (ix2 k c)) + b1 (ix1 c)
          + (∑ k : Fin 128, Ideal.div (val_main_v17 (F := Ideal) x0 xs xd (ix2 r k))
                (max (val_main_v21 (F := Ideal) xd (ix1 r)) Cert.Sage.one) * wn (ix2 k c))
          + b2 (ix1 c)) Cert.Sage.zero := by
  have el : ∀ k : Fin 128, lidx_main_v4 (ix2 r c) k = ix2 r k := fun k => funext fun a => by
    match a with
    | ⟨0, _⟩ => rfl
    | ⟨1, _⟩ => rfl
  have er : ∀ k : Fin 128, ridx_main_v4 (ix2 r c) k = ix2 k c := fun k => funext fun a => by
    match a with
    | ⟨0, _⟩ => rfl
    | ⟨1, _⟩ => rfl
  have el' : ∀ k : Fin 128, lidx_main_v27 (ix2 r c) k = ix2 r k := fun k => funext fun a => by
    match a with
    | ⟨0, _⟩ => rfl
    | ⟨1, _⟩ => rfl
  have er' : ∀ k : Fin 128, ridx_main_v27 (ix2 r c) k = ix2 k c := fun k => funext fun a => by
    match a with
    | ⟨0, _⟩ => rfl
    | ⟨1, _⟩ => rfl
  have eb1 : idx_main_v5 (idx_main_v6 (ix2 r c)) = ix1 c := funext fun a => by
    match a with
    | ⟨0, _⟩ => rfl
  have eb2 : idx_main_v29 (idx_main_v30 (ix2 r c)) = ix1 c := funext fun a => by
    match a with
    | ⟨0, _⟩ => rfl
  have ec : ∀ k : Fin 128, idx_main_v24 (idx_main_v25 (ix2 r k)) = ix1 r := fun k => funext fun a => by
    match a with
    | ⟨0, _⟩ => rfl
  rw [val_main_v57_apply, val_main_v31_apply, val_main_v28_apply, val_main_v7_apply, val_main_v4_apply, val_main_v6_apply, val_main_v5_apply, val_main_v27_apply, val_main_v30_apply, val_main_v29_apply, val_main_call1_v0_apply, val_main_call1_cst_apply]
  rw [eb1, eb2]
  refine congrArg₂ max (congrArg₂ (· + ·) (congrArg₂ (· + ·) (congrArg₂ (· + ·)
    (Finset.sum_congr rfl fun k _ => ?_) rfl) (Finset.sum_congr rfl fun k _ => ?_)) rfl) rfl
  · rw [el k, er k]
  · rw [el' k, er' k, val_main_v26_apply, val_main_v25_apply, val_main_v24_apply, val_main_v23_apply, val_main_v22_apply, val_main_cst_3_apply, ec k]
    rfl

/-- Result 1 of the reference is the layer of the features, the segment sums, the degrees as a column and the sum of
    the two bias vectors as a row. -/
theorem result1_eq (x0 : FVec Ideal S100000x128 .f32) (x1 : FVec Ideal S50000x128 .f32) (ws wn : FVec Ideal S128x128 .f32)
    (b1 b2 : FVec Ideal S128 .f32) (xs xd : IVec S1600000 32)
    (hc : (⟨1, ![50000]⟩ : Shape).ShapeCasts ⟨2, ![50000, 1]⟩) (hb : (⟨1, ![128]⟩ : Shape).ShapeCasts ⟨2, ![1, 128]⟩) :
    val_main_v57 (F := Ideal) x0 x1 ws b1 wn b2 xs xd
      = Cert.Sage.layer (N := 50000) x1 (val_main_v17 (F := Ideal) x0 xs xd) (shapeCast ⟨2, ![50000, 1]⟩ (val_main_v21 (F := Ideal) xd) hc)
          ws wn (shapeCast ⟨2, ![1, 128]⟩ (addf (F := Ideal) (s := S128) (φ := .f32) b1 b2) hb) := by
  funext i
  obtain ⟨r, c, rfl⟩ : ∃ (r : Fin 50000) (c : Fin 128), i = ix2 r c := ⟨i 0, i 1, eq_ix2 i⟩
  rw [result1_apply, Cert.Sage.bias_order, Cert.Sage.layer_apply]
  unfold Cert.Sage.entry
  rw [Cert.LibKeepdims.shapeCast_a_a1_apply, shapeCast_a_1a_apply]
  rfl

end Cert.ReferenceIdeal.Layer

end
-- ==== Proof.Claims.lean ====
/-
  The five claims.

  The kernel program's two results: each region leaves its output array at the layer of the arrays it finds, and
  the host operations before the regions leave there the argument arrays, the segment sums, the degree column and
  the bias row; so each result is one function of the argument arrays. The reference's two results are the same
  functions of its argument arrays, and the two memories agree on the arguments. The frames of the two kernel
  programs are the generated ones; the reference's frame is its run with the results dropped; the idealization
  rewrote nothing, so there is nothing to preserve.
-/
import proofs.«153764_j764504178904_2_alg».proof.Defs
import proofs.«153764_j764504178904_2_alg».proof.Proof.Gen.Kernel
import proofs.«153764_j764504178904_2_alg».proof.Proof.Gen.Kernel.Frame
import proofs.«153764_j764504178904_2_alg».proof.Proof.Gen.KernelIdeal
import proofs.«153764_j764504178904_2_alg».proof.Proof.Gen.KernelIdeal.Frame
import proofs.«153764_j764504178904_2_alg».proof.Proof.Gen.ReferenceIdeal
import proofs.«153764_j764504178904_2_alg».proof.Proof.Gen.Pre_finite_inputs
import proofs.«153764_j764504178904_2_alg».proof.Proof.Gen.ReferenceIdeal.Run
import proofs.«153764_j764504178904_2_alg».proof.Proof.Gen.ReferenceIdeal.Read
import proofs.«153764_j764504178904_2_alg».proof.Proof.Results
import proofs.«153764_j764504178904_2_alg».proof.Proof.Blocks
import proofs.«153764_j764504178904_2_alg».proof.Proof.Entry0
import proofs.«153764_j764504178904_2_alg».proof.Proof.Entry1
import proofs.«153764_j764504178904_2_alg».proof.Proof.RefLayer

set_option maxRecDepth 16384

noncomputable section

namespace Cert.Proof.Claims

open Idealize.ShloMosaic Idealize.ShloMosaic.TcCoe Idealize.SL.Sem
open Cert.KernelIdeal Cert.KernelIdeal.Gen

/-- The member nodes' result as a function of the argument arrays: the layer of the members' features, the sums
    of the bills' features over the bill-to-member edges, the members' in-degrees, the members' two weight matrices
    and the sum of the members' two bias vectors. -/
def members (a0 : FVec Ideal S100000x128 .f32) (a1 : FVec Ideal S50000x128 .f32) (a2 a8 : FVec Ideal S128x128 .f32)
    (a3 a9 : FVec Ideal S128 .f32) (a12 a13 : IVec S1600000 32) : FVec Ideal S100000x128 .f32 :=
  Cert.Sage.layer (N := 100000) a0 (Cert.ReferenceIdeal.Read.val_main_v41 (F := Ideal) a1 a12 a13)
    (shapeCast S100000x1 (Cert.ReferenceIdeal.Read.val_main_v45 (F := Ideal) a13) shapeCasts_S100000_S100000x1)
    a2 a8 (shapeCast S1x128 (addf (F := Ideal) (s := S128) (φ := .f32) a3 a9) shapeCasts_S128_S1x128)

/-- The bill nodes' result as a function of the argument arrays, likewise over the member-to-bill edges. -/
def bills (a0 : FVec Ideal S100000x128 .f32) (a1 : FVec Ideal S50000x128 .f32) (a4 a6 : FVec Ideal S128x128 .f32)
    (a5 a7 : FVec Ideal S128 .f32) (a10 a11 : IVec S1600000 32) : FVec Ideal S50000x128 .f32 :=
  Cert.Sage.layer (N := 50000) a1 (Cert.ReferenceIdeal.Read.val_main_v17 (F := Ideal) a0 a10 a11)
    (shapeCast S50000x1 (Cert.ReferenceIdeal.Read.val_main_v21 (F := Ideal) a11) shapeCasts_S50000_S50000x1)
    a4 a6 (shapeCast S1x128 (addf (F := Ideal) (s := S128) (φ := .f32) a5 a7) shapeCasts_S128_S1x128)

section Kernel

variable (m : (ℓ : Loc nD τ sig) → Buf (Elt Ideal) ℓ) (ρ : Dev nD → PrngReg)

/-- What the first region leaves in its output array. -/
theorem first_region (c : Dev nD) : (dat0 (V1 m ρ) c).arrAt 6 cfg0.N
    = members (m ((c : Thread nD τ).loc main_arg0)) (m ((c : Thread nD τ).loc main_arg1)) (m ((c : Thread nD τ).loc main_arg2))
        (m ((c : Thread nD τ).loc main_arg8)) (m ((c : Thread nD τ).loc main_arg3)) (m ((c : Thread nD τ).loc main_arg9))
        (m ((c : Thread nD τ).loc main_arg12)) (m ((c : Thread nD τ).loc main_arg13)) := by
  rw [Cert.KernelIdeal.Blocks.final0 (V1 m ρ) c]
  rw [Cert.KernelIdeal.Entry0.feats m ρ c, Cert.KernelIdeal.Entry0.sums m ρ c, Cert.KernelIdeal.Entry0.degs m ρ c,
    Cert.KernelIdeal.Entry0.wself m ρ c, Cert.KernelIdeal.Entry0.wneigh m ρ c, Cert.KernelIdeal.Entry0.bias m ρ c]
  rfl

/-- What the second region leaves in its output array. -/
theorem second_region (c : Dev nD) : (dat1 (V2 m ρ) c).arrAt 6 cfg1.N
    = bills (m ((c : Thread nD τ).loc main_arg0)) (m ((c : Thread nD τ).loc main_arg1)) (m ((c : Thread nD τ).loc main_arg4))
        (m ((c : Thread nD τ).loc main_arg6)) (m ((c : Thread nD τ).loc main_arg5)) (m ((c : Thread nD τ).loc main_arg7))
        (m ((c : Thread nD τ).loc main_arg10)) (m ((c : Thread nD τ).loc main_arg11)) := by
  rw [Cert.KernelIdeal.Blocks.final1 (V2 m ρ) c]
  rw [Cert.KernelIdeal.Entry1.feats m ρ c, Cert.KernelIdeal.Entry1.sums m ρ c, Cert.KernelIdeal.Entry1.degs m ρ c,
    Cert.KernelIdeal.Entry1.wself m ρ c, Cert.KernelIdeal.Entry1.wneigh m ρ c, Cert.KernelIdeal.Entry1.bias m ρ c]
  rfl

end Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the arguments, the two idealized programs end with the same two results:
    the layers of the member nodes and of the bill nodes. -/
theorem algebraic : Cert.algebraic_KernelIdeal_ReferenceIdeal := by
  intro m ρ m' ρ' _ hagree
  refine ⟨fun c => members (m ((c : Thread nD τ).loc main_arg0)) (m ((c : Thread nD τ).loc main_arg1)) (m ((c : Thread nD τ).loc main_arg2))
        (m ((c : Thread nD τ).loc main_arg8)) (m ((c : Thread nD τ).loc main_arg3)) (m ((c : Thread nD τ).loc main_arg9))
        (m ((c : Thread nD τ).loc main_arg12)) (m ((c : Thread nD τ).loc main_arg13)),
    fun c => bills (m ((c : Thread nD τ).loc main_arg0)) (m ((c : Thread nD τ).loc main_arg1)) (m ((c : Thread nD τ).loc main_arg4))
        (m ((c : Thread nD τ).loc main_arg6)) (m ((c : Thread nD τ).loc main_arg5)) (m ((c : Thread nD τ).loc main_arg7))
        (m ((c : Thread nD τ).loc main_arg10)) (m ((c : Thread nD τ).loc main_arg11)), ?_, ?_⟩
  · exact (θ_run Cert.KernelIdeal.defs _ _).mono
      (fun r h c => ⟨(h c).1.trans (first_region m ρ c), (h c).2.1.trans (second_region m ρ c), (h c).2.2⟩)
      (Cert.KernelIdeal.Results.run (F := Ideal) m ρ)
  · refine (θ_run Cert.ReferenceIdeal.defs _ _).mono (fun r h c => ⟨?_, ?_, (h c).2.2⟩)
      (Cert.ReferenceIdeal.Value.run (F := Ideal) m' ρ')
    · obtain ⟨h0, h1, h2, h3, h4, h5, h6, h7, h8, h9, h10, h11, h12, h13⟩ := hagree c
      rw [(h c).1, Cert.ReferenceIdeal.Read.val_main_v56_eq,
        Cert.ReferenceIdeal.Layer.result0_eq _ _ _ _ _ _ _ _ shapeCasts_S100000_S100000x1 shapeCasts_S128_S1x128,
        h0, h1, h2, h3, h8, h9, h12, h13]
      rfl
    · obtain ⟨h0, h1, h2, h3, h4, h5, h6, h7, h8, h9, h10, h11, h12, h13⟩ := hagree c
      rw [(h c).2.1, Cert.ReferenceIdeal.Read.val_main_v57_eq,
        Cert.ReferenceIdeal.Layer.result1_eq _ _ _ _ _ _ _ _ shapeCasts_S50000_S50000x1 shapeCasts_S128_S1x128,
        h0, h1, h4, h5, h6, h7, h10, h11]
      rfl

end Cert.Proof.Claims

end
-- ==== Proof.lean ====
/-
  The certificate of the two-type graph layer: both programs compute, for the member nodes and for the bill nodes,

      max ( X Ws  +  (S / max(deg, 1)) Wn  +  (b_self + b_neigh) ,  0 )

  entry by entry on the extended reals, with S the sums of the other type's features over the incoming edges and deg
  the in-degrees. The kernel program computes S and deg on the host and the rest in two tiled kernels of 5000-row
  blocks; the reference computes everything on the host and adds its two bias vectors one after the other. The
  modules: Spec (the layer as a function of arrays, and the one law used: addition is commutative and associative),
  Payload (what one grid point stores), Blocks (from blocks to whole arrays), Entry0 and Entry1 (what the host
  operations leave for each region), Results (the kernel program's run with its results named), RefLayer (the
  reference's results as the layer), Claims (the five claims).
-/
import proofs.«153764_j764504178904_2_alg».proof.Defs
import proofs.«153764_j764504178904_2_alg».proof.Proof.Gen.Kernel
import proofs.«153764_j764504178904_2_alg».proof.Proof.Gen.Kernel.Skeleton
import proofs.«153764_j764504178904_2_alg».proof.Proof.Gen.Kernel.Launch
import proofs.«153764_j764504178904_2_alg».proof.Proof.Gen.Kernel.Points
import proofs.«153764_j764504178904_2_alg».proof.Proof.Gen.Kernel.Frame
import proofs.«153764_j764504178904_2_alg».proof.Proof.Gen.KernelIdeal
import proofs.«153764_j764504178904_2_alg».proof.Proof.Gen.KernelIdeal.Skeleton
import proofs.«153764_j764504178904_2_alg».proof.Proof.Gen.KernelIdeal.Launch
import proofs.«153764_j764504178904_2_alg».proof.Proof.Gen.KernelIdeal.Points
import proofs.«153764_j764504178904_2_alg».proof.Proof.Gen.KernelIdeal.Frame
import proofs.«153764_j764504178904_2_alg».proof.Proof.Gen.ReferenceIdeal
import proofs.«153764_j764504178904_2_alg».proof.Proof.Gen.Pre_finite_inputs
import proofs.«153764_j764504178904_2_alg».proof.Proof.Gen.ReferenceIdeal.Run
import proofs.«153764_j764504178904_2_alg».proof.Proof.Gen.ReferenceIdeal.Read
import proofs.«153764_j764504178904_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
